-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64x128 : Shape := ⟨3, ![32768, 64, 128]⟩
abbrev S10x64 : Shape := ⟨2, ![10, 64]⟩
abbrev S_ : Shape := ⟨0, ![]⟩

class Facts : Prop where
  bcast_S_S32768x64x128 : S_.BroadcastsInDim S32768x64x128 (![] : Fin 0 → Fin S32768x64x128.rank)
  reducesTo_S32768x64x128_S_d0_1_2 : S32768x64x128.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_

variable [Facts]

def fn {F : FTy → Type} [FloatOps F] (main_arg0 : FVec F S32768x64x128 .f32) (main_arg1 : FVec F S10x64 .f32) : IVec S_ 1 :=
  let main_v0 : FVec F S32768x64x128 .f32 := Host.absf main_arg0
  let main_cst : FVec F S_ .f32 := constant S_ .f32 0x7F800000#32
  let main_v1 : FVec F S32768x64x128 .f32 := broadcastInDim S32768x64x128 ![] bcast_S_S32768x64x128 main_cst
  let main_v2 : IVec S32768x64x128 1 := cmpf .olt main_v0 main_v1
  let main_c : IVec S_ 1 := constantI S_ 1 1#1
  let main_v3 : IVec S_ 1 := (fun x v => Host.reduce IntOp.andi x v reducesTo_S32768x64x128_S_d0_1_2 h_S_) main_v2 main_c
  let main_v4 : FVec F S10x64 .f32 := Host.absf main_arg1
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  main_v8
-- ==== Kernel.lean ====
abbrev S32768x64x128 : Shape := ⟨3, ![32768, 64, 128]⟩
abbrev S10x64 : Shape := ⟨2, ![10, 64]⟩
abbrev S32768x10 : Shape := ⟨2, ![32768, 10]⟩
abbrev S256x64x128 : Shape := ⟨3, ![256, 64, 128]⟩
abbrev S256x10 : Shape := ⟨2, ![256, 10]⟩
abbrev S1x10x64 : Shape := ⟨3, ![1, 10, 64]⟩
abbrev S256x10x64 : Shape := ⟨3, ![256, 10, 64]⟩
abbrev S256x10x128 : Shape := ⟨3, ![256, 10, 128]⟩

abbrev nBuf : Space → Nat
  | .hbm => 5
  | .vmem => 5
  | .smem => 0
  | _ => 0

abbrev bufTy : (tb : Table) → Fin (tcTables nBuf tb) → BufTy
  | .hbm, ⟨0, _⟩ => ⟨S32768x64x128, .f32⟩
  | .hbm, ⟨1, _⟩ => ⟨S10x64, .f32⟩
  | .hbm, ⟨2, _⟩ => ⟨S10x64, .f32⟩
  | .hbm, ⟨3, _⟩ => ⟨S10x64, .bf16⟩
  | .hbm, ⟨4, _⟩ => ⟨S32768x10, .f32⟩
  | .local _ .vmem, ⟨0, _⟩ => ⟨S256x64x128, .f32⟩
  | .local _ .vmem, ⟨1, _⟩ => ⟨S256x64x128, .f32⟩
  | .local _ .vmem, ⟨2, _⟩ => ⟨S10x64, .bf16⟩
  | .local _ .vmem, ⟨3, _⟩ => ⟨S256x10, .f32⟩
  | .local _ .vmem, ⟨4, _⟩ => ⟨S256x10, .f32⟩
  | _, _ => ⟨S32768x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S256x64x128_S256x64x128_0_0_0 : ∀ a, (![0, 0, 0] : Fin 3 → Nat) a + S256x64x128.size a ≤ S256x64x128.size a
  h_S256x64x128 : 0 < S256x64x128.numel
  inb_S10x64_S10x64_0_0 : ∀ a, (![0, 0] : Fin 2 → Nat) a + S10x64.size a ≤ S10x64.size a
  h_S10x64 : 0 < S10x64.numel
  shapeCasts_S10x64_S10x64 : S10x64.ShapeCasts S10x64
  shapeCasts_S10x64_S1x10x64 : S10x64.ShapeCasts S1x10x64
  shapeCasts_S1x10x64_S1x10x64 : S1x10x64.ShapeCasts S1x10x64
  broadcasts_S1x10x64_S256x10x64 : S1x10x64.Broadcasts S256x10x64
  reduces_S256x10x128_S256x10 : S256x10x128.Reduces [2] S256x10
  inb_S256x10_S256x10_0_0 : ∀ a, (![0, 0] : Fin 2 → Nat) a + S256x10.size a ≤ S256x10.size a
  h_S256x10 : 0 < S256x10.numel
  dot_S256x10x64_S256x64x128_S256x10x128_2_1_1_2_0_0_wf : DotDims.WF S256x10x64 S256x64x128 S256x10x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S32768x64x128.size a
  hwx0_0 : ∀ i : grid0.Coords, EltTy.bits .f32 = 32 ∨ (Rect.block (s := S32768x64x128) S256x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x64.size a ≤ S10x64.size a
  hwx0_1 : ∀ i : grid0.Coords, EltTy.bits .bf16 = 32 ∨ (Rect.block (s := S10x64) S10x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x10.size a ≤ S32768x10.size a
  hwx0_2 : ∀ i : grid0.Coords, EltTy.bits .f32 = 32 ∨ (Rect.block (s := S32768x10) S256x10.size (cc0_transform_2 i) (hinb0_2 i)).WholeWords (EltTy.packing .f32)

variable [Facts₀]

def dot_S256x10x64_S256x64x128_S256x10x128_2_1_1_2_0_0 : DotDims S256x10x64 S256x64x128 S256x10x128 where
  lhsContracting := [2]
  rhsContracting := [1]
  lhsNonContracting := [1]
  rhsNonContracting := [2]
  lhsBatch := [0]
  rhsBatch := [0]
  wf := dot_S256x10x64_S256x64x128_S256x10x128_2_1_1_2_0_0_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x10.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x64x128 : Shape := ⟨3, ![32768, 64, 128]⟩
abbrev S10x64 : Shape := ⟨2, ![10, 64]⟩
abbrev S_ : Shape := ⟨0, ![]⟩
abbrev S32768x64 : Shape := ⟨2, ![32768, 64]⟩
abbrev S32768x10 : Shape := ⟨2, ![32768, 10]⟩

abbrev nBuf : Space → Nat
  | .hbm => 7
  | .vmem => 0
  | .smem => 0
  | _ => 0

abbrev bufTy : (tb : Table) → Fin (tcTables nBuf tb) → BufTy
  | .hbm, ⟨0, _⟩ => ⟨S32768x64x128, .f32⟩
  | .hbm, ⟨1, _⟩ => ⟨S10x64, .f32⟩
  | .hbm, ⟨2, _⟩ => ⟨S32768x64x128, .f32⟩
  | .hbm, ⟨3, _⟩ => ⟨S_, .f32⟩
  | .hbm, ⟨4, _⟩ => ⟨S32768x64, .f32⟩
  | .hbm, ⟨5, _⟩ => ⟨S10x64, .f32⟩
  | .hbm, ⟨6, _⟩ => ⟨S32768x10, .f32⟩
  | _, _ => ⟨S32768x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S32768x64x128_S32768x64_d2 : S32768x64x128.ReducesTo [2] S32768x64
  h_S_ : 0 < S_.numel
  dot_S32768x64_S10x64_S32768x10_1_1_0_0_n_n_wf : DotDims.WF S32768x64 S10x64 S32768x10 [1] [1] [0] [0] [] []

variable [Facts₀]

def dot_S32768x64_S10x64_S32768x10_1_1_0_0_n_n : DotDims S32768x64 S10x64 S32768x10 where
  lhsContracting := [1]
  rhsContracting := [1]
  lhsNonContracting := [0]
  rhsNonContracting := [0]
  lhsBatch := []
  rhsBatch := []
  wf := dot_S32768x64_S10x64_S32768x10_1_1_0_0_n_n_wf

class Facts : Prop extends Facts₀ where

variable [Facts]
-- ==== Proof.BlockEntry.lean ====
/-
  One entry of the block the kernel body writes.

  At a grid point the body holds a block x0 of 256 rows of x (shape [256, 64, 128]) and the whole squared-weight
  array w2 (shape [10, 64]). It squares x0 entry by entry, repeats w2 for each of the 256 rows, multiplies
  w2[p, ·] into the squares over the fields — a product with batch axis the row, contracting the 64 fields, into a
  zero accumulator — and sums the [256, 10, 128] result along its 128 lanes. Entry (b, p) of what it stores is
      ∑ e, ∑ f, w2(p,f) · (x0(b,f,e) · x0(b,f,e)).
-/
import proofs.«152987_j7868380086487_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx
open scoped BigOperators

/-- The product's dimension numbers: batch axis 0 of both operands, the left operand's axis 2 against the right
    operand's axis 1. -/
abbrev dot : DotDims S256x10x64 S256x64x128 S256x10x128 := dot_S256x10x64_S256x64x128_S256x10x128_2_1_1_2_0_0

/-! ## Which operand entries meet at result entry (b, p, e) and field f -/

theorem lhs_row (j : S256x10x128.Idx) (q : dot.contr.Idx) : (dot.lhsIdx j q 0).val = (j 0).val := by
  unfold DotDims.lhsIdx
  rw [dif_pos (show (0 : Fin S256x10x64.rank) ∈ dot.lhsBatch by decide)]
  rfl

theorem lhs_out (j : S256x10x128.Idx) (q : dot.contr.Idx) : (dot.lhsIdx j q 1).val = (j 1).val := by
  unfold DotDims.lhsIdx
  rw [dif_neg (show ¬(1 : Fin S256x10x64.rank) ∈ dot.lhsBatch by decide),
    dif_pos (show (1 : Fin S256x10x64.rank) ∈ dot.lhsNonContracting by decide)]
  rfl

theorem lhs_field (j : S256x10x128.Idx) (q : dot.contr.Idx) : (dot.lhsIdx j q 2).val = (q ⟨0, by decide⟩).val :=
  dot.lhsIdx_val_of_single rfl j q

theorem rhs_row (j : S256x10x128.Idx) (q : dot.contr.Idx) : (dot.rhsIdx j q 0).val = (j 0).val := by
  unfold DotDims.rhsIdx
  rw [dif_pos (show (0 : Fin S256x64x128.rank) ∈ dot.rhsBatch by decide)]
  rfl

theorem rhs_field (j : S256x10x128.Idx) (q : dot.contr.Idx) : (dot.rhsIdx j q 1).val = (q ⟨0, by decide⟩).val :=
  dot.rhsIdx_val_of_single rfl j q

theorem rhs_lane (j : S256x10x128.Idx) (q : dot.contr.Idx) : (dot.rhsIdx j q 2).val = (j 2).val := by
  unfold DotDims.rhsIdx
  rw [dif_neg (show ¬(2 : Fin S256x64x128.rank) ∈ dot.rhsBatch by decide),
    dif_pos (show (2 : Fin S256x64x128.rank) ∈ dot.rhsNonContracting by decide)]
  rfl

/-! ## The repeated weights -/

/-- The squared weights viewed as [1, 10, 64] and repeated along 256 rows read, at (b, p, f), the weight (p, f). -/
theorem repeated_weights (w2 : FVec Ideal S10x64 .bf16) (b : Fin 256) (p : Fin 10) (f : Fin 64) :
    broadcastTo S256x10x64
        (shapeCast S1x10x64 (shapeCast S1x10x64 (shapeCast S10x64 w2 shapeCasts_S10x64_S10x64) shapeCasts_S10x64_S1x10x64)
          shapeCasts_S1x10x64_S1x10x64)
        broadcasts_S1x10x64_S256x10x64 (ix3 b p f)
      = w2 (ix2 p f) := by
  rw [shapeCast_self, shapeCast_self]
  refine (broadcastTo_apply _ broadcasts_S1x10x64_S256x10x64 (ix3 b p f) (ix3 (0 : Fin 1) p f) fun a => ?_).trans ?_
  · match a with
    | ⟨0, _⟩ => rfl
    | ⟨1, _⟩ => rfl
    | ⟨2, _⟩ => rfl
  · exact shapeCast_ab_1ab_apply w2 shapeCasts_S10x64_S1x10x64 (0 : Fin 1) p f

/-! ## The entry -/

theorem block_entry (x0 : FVec Ideal S256x64x128 .f32) (w2 : FVec Ideal S10x64 .bf16) (b : Fin 256) (p : Fin 10) :
    k0_pay1 (F := Ideal) x0 w2 (ix2 b p)
      = ∑ e : Fin 128, ∑ f : Fin 64, w2 (ix2 p f) * (x0 (ix3 b f e) * x0 (ix3 b f e)) := by
  unfold k0_pay1
  refine (Ideal.multiReduction_add_single _ (0x00000000#32 : BitVec 32) reduces_S256x10x128_S256x10 (.inl rfl) rfl (ix2 b p)).trans ?_
  refine Finset.sum_congr rfl fun e _ => ?_
  refine (Ideal.matmul_constant_zero_apply dot none _ _ _).trans ?_
  rw [← Equiv.sum_comp (contrEquiv1 dot 64 rfl rfl).symm]
  refine Finset.sum_congr rfl fun f _ => ?_
  have hf := contrEquiv1_symm_val dot 64 rfl rfl f
  have hl : dot.lhsIdx (reduces_S256x10x128_S256x10.lift (ix2 b p) e) ((contrEquiv1 dot 64 rfl rfl).symm f) = ix3 b p f :=
    funext fun a => Fin.ext (by
      match a with
      | ⟨0, _⟩ => exact lhs_row _ _
      | ⟨1, _⟩ => exact lhs_out _ _
      | ⟨2, _⟩ => exact (lhs_field _ _).trans hf)
  have hr : dot.rhsIdx (reduces_S256x10x128_S256x10.lift (ix2 b p) e) ((contrEquiv1 dot 64 rfl rfl).symm f) = ix3 b f e :=
    funext fun a => Fin.ext (by
      match a with
      | ⟨0, _⟩ => exact rhs_row _ _
      | ⟨1, _⟩ => exact (rhs_field _ _).trans hf
      | ⟨2, _⟩ => exact rhs_lane _ _)
  rw [hl, hr, repeated_weights]
  rfl

end Cert.KernelIdeal.BlockValue

end
-- ==== Proof.LibSumExchange.lean ====
/-
  Two finite sums of products on the extended reals, taken in either order.

  The extended reals are not a ring: a product does not distribute over a sum when an infinity meets a
  sum of opposite signs. On entries that are real numbers everything happens inside ℝ, where
      ∑ b, ∑ a, u a · y a b  =  ∑ a, (∑ b, y a b) · u a
  is the exchange of two finite sums followed by pulling the factor `u a`, which does not depend on
  `b`, out of the inner sum. The statement below keeps the `0 +` a sum started from zero carries.
-/
import Mathlib.Data.EReal.Operations
import Mathlib.Algebra.BigOperators.Ring.Finset
import Mathlib.Algebra.BigOperators.Group.Finset.Sigma

namespace Cert.SumExchange

open scoped BigOperators

/-- An extended real that is a real number. -/
def IsReal (x : EReal) : Prop := ∃ r : ℝ, x = (r : EReal)

/-- A product of two real numbers is a real number. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- The coercion ℝ → EReal commutes with a finite sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- Summing `u a · y a b` over `a` and then over `b` is summing, over `a`, the row sum `∑ b, y a b`
    (started from zero) times `u a` — on real entries. -/
theorem sum_sum_mul_eq {A B : Type*} [Fintype A] [Fintype B] (y : A → B → EReal) (u : A → EReal)
    (hy : ∀ a b, IsReal (y a b)) (hu : ∀ a, IsReal (u a)) :
    ∑ b, ∑ a, u a * y a b = ∑ a, (0 + ∑ b, y a b) * u a := by
  choose y' hy' using hy
  choose u' hu' using hu
  simp only [hy', hu', zero_add, ← EReal.coe_mul, coe_sum]
  refine congrArg (fun r : ℝ => (r : EReal)) ?_
  rw [Finset.sum_comm]
  refine Finset.sum_congr rfl fun a _ => ?_
  rw [Finset.sum_mul]
  exact Finset.sum_congr rfl fun b _ => mul_comm _ _

end Cert.SumExchange
-- ==== Proof.WeightedSquares.lean ====
/-
  The result both programs compute, as one function of the two argument arrays, in two arrangements.

  With x of shape [32768, 64, 128] (row r, field f, lane e) and w of shape [10, 64] (output p, field f), entry
  (r, p) of the result is the sum over fields and lanes of  w(p,f)² · x(r,f,e)².

  * lanes outermost:   ∑ e, ∑ f, (w(p,f)·w(p,f)) · (x(r,f,e)·x(r,f,e))         — a product contracted over the
    fields, then summed along the lanes;
  * fields outermost:  ∑ f, (0 + ∑ e, x(r,f,e)·x(r,f,e)) · (w(p,f)·w(p,f))     — each field's squared norm first,
    then a product contracted over the fields.

  On arrays whose entries are real numbers the two agree: the exchange of the two sums (LibSumExchange.lean).
-/
import proofs.«152987_j7868380086487_2_alg».proof.Proof.LibSumExchange
import Idealize.ShloMosaic.Lib.ValueIdx

noncomputable section

namespace Cert.WeightedSquares

open Idealize.ShloMosaic Idealize.ShloMosaic.ValueIdx Cert.SumExchange
open scoped BigOperators

/-- The shapes of x, of w and of the result. -/
abbrev SX : Shape := ⟨3, ![32768, 64, 128]⟩
abbrev SW : Shape := ⟨2, ![10, 64]⟩
abbrev SO : Shape := ⟨2, ![32768, 10]⟩

/-- Entry (r, p) with the lanes outermost. -/
def lanesOuterAt (x : SX.Idx → EReal) (w : SW.Idx → EReal) (r : Fin 32768) (p : Fin 10) : EReal :=
  ∑ e : Fin 128, ∑ f : Fin 64, (w (ix2 p f) * w (ix2 p f)) * (x (ix3 r f e) * x (ix3 r f e))

/-- Entry (r, p) with the fields outermost. -/
def fieldsOuterAt (x : SX.Idx → EReal) (w : SW.Idx → EReal) (r : Fin 32768) (p : Fin 10) : EReal :=
  ∑ f : Fin 64, (0 + ∑ e : Fin 128, x (ix3 r f e) * x (ix3 r f e)) * (w (ix2 p f) * w (ix2 p f))

/-- The whole result, lanes outermost. -/
def lanesOuter (x : SX.Idx → EReal) (w : SW.Idx → EReal) : SO.Idx → EReal :=
  fun i => lanesOuterAt x w (i 0) (i 1)

/-- The whole result, fields outermost. -/
def fieldsOuter (x : SX.Idx → EReal) (w : SW.Idx → EReal) : SO.Idx → EReal :=
  fun i => fieldsOuterAt x w (i 0) (i 1)

/-- On real entries the two arrangements are one function. -/
theorem lanesOuter_eq_fieldsOuter (x : SX.Idx → EReal) (w : SW.Idx → EReal)
    (hx : ∀ j, IsReal (x j)) (hw : ∀ j, IsReal (w j)) : lanesOuter x w = fieldsOuter x w :=
  funext fun i =>
    sum_sum_mul_eq (A := Fin 64) (B := Fin 128)
      (fun f e => x (ix3 (i 0) f e) * x (ix3 (i 0) f e)) (fun f => w (ix2 (i 1) f) * w (ix2 (i 1) f))
      (fun _ _ => (hx _).mul (hx _)) (fun _ => (hw _).mul (hw _))

end Cert.WeightedSquares

end
-- ==== Proof.KernelArray.lean ====
/-
  The kernel's output array, as one function of the two argument arrays.

  The grid has 128 points. Point t stages rows 256·t … 256·t + 255 of x (all fields, all lanes), the whole
  squared-weight array (computed before the launch as w·w, entry by entry), and writes rows 256·t … 256·t + 255 of
  the [32768, 10] output. Entry (b, p) of the block written at point t is the lanes-outermost sum over row
  256·t + b of x and weight row p (BlockEntry.lean); the 128 blocks tile the output, so after the run the whole
  array is `lanesOuter x w`.
-/
import proofs.«152987_j7868380086487_2_alg».proof.Proof.Gen.KernelIdeal.Value
import proofs.«152987_j7868380086487_2_alg».proof.Proof.BlockEntry
import proofs.«152987_j7868380086487_2_alg».proof.Proof.WeightedSquares
import Idealize.ShloMosaic.Lib.StableHlo.Run

noncomputable section

namespace Cert.KernelIdeal.ArrayValue

open Cert.KernelIdeal Cert.KernelIdeal.Gen Cert.KernelIdeal.BlockValue Cert.WeightedSquares
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The argument arrays x and w as the launch finds them on core c. -/
abbrev argX (c : Dev nD) : SX.Idx → EReal := m ((c : Thread nD τ).loc main_arg0)
abbrev argW (c : Dev nD) : SW.Idx → EReal := m ((c : Thread nD τ).loc main_arg1)

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The block written at one point -/

/-- Entry y of the block the body writes, when row `y 0` of the staged block of x is row r of an array X and row
    `y 1` of the staged weights is the entrywise square of row p of an array W. -/
theorem point_entry (x0 : FVec Ideal S256x64x128 .f32) (w2 : FVec Ideal S10x64 .bf16)
    (X : SX.Idx → EReal) (W : SW.Idx → EReal) (y : S256x10.Idx) (r : Fin 32768) (p : Fin 10)
    (hx : ∀ (f : Fin 64) (e : Fin 128), x0 (ix3 (y 0) f e) = X (ix3 r f e))
    (hw : ∀ f : Fin 64, w2 (ix2 (y 1) f) = W (ix2 p f) * W (ix2 p f)) :
    k0_pay1 (F := Ideal) x0 w2 y = lanesOuterAt X W r p := by
  obtain ⟨b, q, rfl⟩ : ∃ (b : Fin 256) (q : Fin 10), y = ix2 b q := ⟨y 0, y 1, eq_ix2 y⟩
  rw [block_entry]
  unfold lanesOuterAt
  refine Finset.sum_congr rfl fun e _ => Finset.sum_congr rfl fun f _ => ?_
  rw [← hx f e, ← hw f]

/-! ## The arrays the region finds -/

/-- The weight window's array when the region is entered: w squared entry by entry. -/
theorem weights_at_entry (c : Dev nD) (j : S10x64.Idx) :
    (V m c main_v1 : S10x64.Idx → EReal) j = argW m c j * argW m c j := by
  have e : (V m c main_v1 : S10x64.Idx → EReal)
      = truncf .bf16 (mulf (F := Ideal) (argW m c) (argW m c)) bitsLt_bf16_f32 := by
    dsimp only [Gen.V, Gen.hostOps0]; after_results
  rw [e]; rfl

/-- The index maps over the grid: point t takes block t of x along the rows and block 0 along fields and lanes,
    the one block of the weights, and block t of the output along the rows. -/
theorem idx_facts : ∀ t : Fin cfg0.N, win0_0.index t (0 : Fin 3) = win0_2.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## What point t writes back -/

/-- Point t writes back block t of `lanesOuter x w`. -/
theorem flushed_eq (c : Dev nD) (t : Fin cfg0.N) :
    (dats m 0 c).flushed 2 t
      = ((cfg0.win 2).blk t).view.read (Elt Ideal) (lanesOuter (argX m c) (argW m c)) := by
  rw [Value.flushed2]
  unfold out0_2
  rw [View.canon_unit_zero zeros2]
  simp only [View.ld_unit_zero (S := S256x64x128) zeros3, View.ld_unit_zero (S := S10x64) zeros2]
  obtain ⟨e0, e1, e2, e3, e4, e5, e6⟩ := idx_facts t
  funext y
  show k0_pay1 (F := Ideal) (iblk m c 0 t) (iblk m c 1 t) y
      = lanesOuterAt (argX m c) (argW m c) ((((cfg0.win 2).blk t).view.emb y) 0) ((((cfg0.win 2).blk t).view.emb y) 1)
  refine point_entry (iblk m c 0 t) (iblk m c 1 t) (argX m c) (argW m c) y
    ((((cfg0.win 2).blk t).view.emb y) 0) ((((cfg0.win 2).blk t).view.emb y) 1) (fun f e => ?_) (fun f => ?_)
  · show V m c main_arg0 (((cfg0.win 0).blk t).view.emb (ix3 (y 0) f e))
        = argX m c (ix3 ((((cfg0.win 2).blk t).view.emb y) 0) f e)
    rw [V_main_arg0]
    refine congrArg (argX m c) (funext fun a => Fin.ext ?_)
    match a with
    | ⟨0, _⟩ =>
      show win0_0.index t (0 : Fin 3) * 256 + 1 * (y 0).val = win0_2.index t (0 : Fin 2) * 256 + 1 * (y 0).val
      omega
    | ⟨1, _⟩ => show win0_0.index t (1 : Fin 3) * 64 + 1 * f.val = f.val; omega
    | ⟨2, _⟩ => show win0_0.index t (2 : Fin 3) * 128 + 1 * e.val = e.val; omega
  · show (V m c main_v1 : S10x64.Idx → EReal) (((cfg0.win 1).blk t).view.emb (ix2 (y 1) f)) = _
    rw [weights_at_entry]
    have hidx : ((cfg0.win 1).blk t).view.emb (ix2 (y 1) f)
        = (ix2 ((((cfg0.win 2).blk t).view.emb y) 1) f : S10x64.Idx) :=
      funext fun a => Fin.ext (by
        match a with
        | ⟨0, _⟩ =>
          show win0_1.index t (0 : Fin 2) * 10 + 1 * (y 1).val = win0_2.index t (1 : Fin 2) * 10 + 1 * (y 1).val
          omega
        | ⟨1, _⟩ => show win0_1.index t (1 : Fin 2) * 64 + 1 * f.val = f.val; omega)
    rw [hidx]

/-! ## The blocks tile the output -/

/-- An index of the output is in point t's block iff each coordinate is in the block's range on its axis. -/
theorem mem_blk (t : Fin cfg0.N) (i : S32768x10.Idx) :
    i ∈ ((cfg0.win 2).blk t).view.set ↔ ∀ a : Fin 2, win0_2.index t a * S256x10.size a ≤ (i a).val
      ∧ (i a).val < win0_2.index t a * S256x10.size a + S256x10.size a := by
  show i ∈ ((View.whole main_v2).slice (win0_2.rect t)).set ↔ _
  rw [View.set_slice_whole, Rect.mem_set_unit]
  exact Iff.rfl

/-- Row r of the output lies in the block of point r / 256. -/
theorem cover (i : S32768x10.Idx) :
    ∃ t : Fin cfg0.N, (cfg0.win 2).flush t = true ∧ i ∈ ((cfg0.win 2).blk t).view.set := by
  have hi0 : (i 0).val < 32768 := (i 0).isLt
  have hi1 : (i 1).val < 10 := (i 1).isLt
  have hN : grid0.N = 128 := N_0
  obtain ⟨t, ht⟩ : ∃ t : Fin cfg0.N, t.val = (i 0).val / 256 :=
    ⟨⟨(i 0).val / 256, by show (i 0).val / 256 < grid0.N; omega⟩, rfl⟩
  obtain ⟨-, -, -, -, -, e5, e6⟩ := idx_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 10 ≤ (i 1).val ∧ (i 1).val < win0_2.index t (1 : Fin 2) * 10 + 10
    omega

/-! ## The array after the run -/

/-- After the run the output array is `lanesOuter x w`. -/
theorem final (c : Dev nD) : (dats m 0 c).arrAt 2 cfg0.N = lanesOuter (argX m c) (argW m c) :=
  (dats m 0 c).arrAt_eq_of_cover 2 (lanesOuter (argX m c) (argW m c)) (fun t _ => flushed_eq m c t) cover

/-- Every weakly fair execution of the kernel's program terminates with the output at `lanesOuter x w` and the
    arguments unchanged. -/
theorem run : θ_run defs (onTc (τ := τ) (main (F := Ideal))) ⟨m, fun _ => 0, ρ⟩ fun r => ∀ c : Dev nD,
      r.2.mem ((c : Thread nD τ).loc main_v2) = lanesOuter (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  The reference's result is the fields-outermost arrangement.

  The reference squares x, sums the squares along the lanes (starting from zero) to one number per
  (row, field), squares w, and contracts the two over the fields. Read at entry (r, p) that is
      ∑ f, (0 + ∑ e, x(r,f,e)·x(r,f,e)) · (w(p,f)·w(p,f)).
-/
import proofs.«152987_j7868380086487_2_alg».proof.Proof.Gen.ReferenceIdeal.Read
import proofs.«152987_j7868380086487_2_alg».proof.Proof.WeightedSquares

noncomputable section

namespace Cert.ReferenceIdeal.RefValue

open Cert.ReferenceIdeal Cert.ReferenceIdeal.Gen Cert.ReferenceIdeal.Read
open Idealize.ShloMosaic Idealize.ShloMosaic.ValueIdx Cert.WeightedSquares
open scoped BigOperators

/-- Lane e of field f of the row that result entry i belongs to. -/
theorem lane_idx (i : S32768x10.Idx) (f : Fin 64) (e : Fin 128) :
    idx_main_v1 (lidx_main_v3 i f) e = ix3 (i 0) f e :=
  funext fun a => Fin.ext (by match a with | ⟨0, _⟩ => rfl | ⟨1, _⟩ => rfl | ⟨2, _⟩ => rfl)

/-- Field f of the weight row that result entry i belongs to. -/
theorem weight_idx (i : S32768x10.Idx) (f : Fin 64) : ridx_main_v3 i f = ix2 (i 1) f :=
  funext fun a => Fin.ext (by match a with | ⟨0, _⟩ => rfl | ⟨1, _⟩ => rfl)

/-- The reference's last stage, as a function of the two argument arrays, is `fieldsOuter`. -/
theorem result_eq (x : FVec Ideal S32768x64x128 .f32) (w : FVec Ideal S10x64 .f32) :
    val_main_v3 (F := Ideal) x w = fieldsOuter x w := by
  funext i
  rw [val_main_v3_apply]
  show _ = ∑ f : Fin 64, (0 + ∑ e : Fin 128, x (ix3 (i 0) f e) * x (ix3 (i 0) f e)) * (w (ix2 (i 1) f) * w (ix2 (i 1) f))
  refine Finset.sum_congr rfl fun f _ => ?_
  rw [val_main_v1_apply, val_main_v2_apply, val_main_cst_apply, weight_idx]
  simp only [lane_idx, Ideal.mulf_def, Ideal.ofBits_def, Ideal.ofBits_zero_f32]
  rfl

end Cert.ReferenceIdeal.RefValue

end
-- ==== Proof.RealEntries.lean ====
/-
  The precondition says every entry of x and of w is a real number.

  The precondition compares |a| with +∞ at every entry a of each array and takes the conjunction of all the
  comparisons. On the extended reals |a| = max a (−a), which is +∞ exactly when a is one of the two infinities,
  so |a| < +∞ holds exactly when a is a real number.
-/
import proofs.«152987_j7868380086487_2_alg».proof.Proof.Gen.Pre_finite_inputs
import proofs.«152987_j7868380086487_2_alg».proof.Proof.LibSumExchange
import Idealize.ShloMosaic.PureOps.Ideal.Laws
import Idealize.ShloMosaic.Lib.ReduceAll
import Idealize.ShloMosaic.Lib.ValueIdx

noncomputable section

namespace Cert.Pre_finite_inputs.RealEntries

open Cert.Pre_finite_inputs Cert.Pre_finite_inputs.Gen Idealize.ShloMosaic Cert.SumExchange

/-- The shape with no axis has one index. -/
instance : Subsingleton S_.Idx := ⟨fun _ _ => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real number. -/
theorem isReal_of_abs_lt (a : EReal)
    (h : Ideal.cmp .olt (max a (-a)) (Ideal.ofBits .f32 0x7F800000#32) = 1#1) : IsReal a := by
  rw [ofBits_inf] at h
  induction a using EReal.rec with
  | bot => simp [Ideal.cmp] at h
  | top => simp [Ideal.cmp] at h
  | coe r => exact ⟨r, rfl⟩

/-- Under the precondition every entry of both arrays is a real number. -/
theorem real_entries (x : FVec Ideal S32768x64x128 .f32) (w : FVec Ideal S10x64 .f32)
    (h : fn (F := Ideal) x w = fun _ => 1#1) : (∀ j, IsReal (x j)) ∧ (∀ j, IsReal (w j)) := by
  have h0 := congrFun h ValueIdx.ix0
  dsimp only [fn] at h0
  obtain ⟨hx, hw⟩ := IntOp.andi_eq_one.mp h0
  exact ⟨fun j => isReal_of_abs_lt _ (Host.reduce_andi_all _ _ _ _ _ hx j),
    fun j => isReal_of_abs_lt _ (Host.reduce_andi_all _ _ _ _ _ hw j)⟩

end Cert.Pre_finite_inputs.RealEntries

end
-- ==== Proof.lean ====
/-
  The kernel and its reference compute one function.

  For x of shape [32768, 64, 128] and w of shape [10, 64] both programs return the [32768, 10] array whose entry
  (r, p) is the sum over the 64 fields f and the 128 lanes e of  w(p,f)² · x(r,f,e)².

  The kernel squares w before the launch; at each of its 128 grid points it squares a block of 256 rows of x,
  contracts the squared weights against the squares over the fields (one product per row), and sums the result
  along the lanes: the lanes-outermost arrangement. The reference sums the squares of x along the lanes first and
  contracts that against the squared weights over the fields: the fields-outermost arrangement. A change of float
  format is the identity on the extended reals, and a sum started from zero is the sum, so the two results differ
  only in the order of the two sums and in where the factor w(p,f)² stands. On the extended reals a product
  distributes over a sum only away from the infinities; the precondition says every entry of x and w is a real
  number, and there the two arrangements agree (LibSumExchange.lean, WeightedSquares.lean).

  The three programs terminate without a fault and leave their arguments unchanged: the kernel's program by its
  generated frame, the reference by its generated run. The idealized kernel is the kernel's own text read on the
  extended reals (no operation was rewritten), so there is nothing to preserve.
-/
import proofs.«152987_j7868380086487_2_alg».proof.Defs
import proofs.«152987_j7868380086487_2_alg».proof.Proof.Gen.Kernel
import proofs.«152987_j7868380086487_2_alg».proof.Proof.Gen.Kernel.Skeleton
import proofs.«152987_j7868380086487_2_alg».proof.Proof.Gen.Kernel.Launch
import proofs.«152987_j7868380086487_2_alg».proof.Proof.Gen.Kernel.Points
import proofs.«152987_j7868380086487_2_alg».proof.Proof.Gen.Kernel.Frame
import proofs.«152987_j7868380086487_2_alg».proof.Proof.Gen.KernelIdeal
import proofs.«152987_j7868380086487_2_alg».proof.Proof.Gen.KernelIdeal.Skeleton
import proofs.«152987_j7868380086487_2_alg».proof.Proof.Gen.KernelIdeal.Launch
import proofs.«152987_j7868380086487_2_alg».proof.Proof.Gen.KernelIdeal.Points
import proofs.«152987_j7868380086487_2_alg».proof.Proof.Gen.KernelIdeal.Frame
import proofs.«152987_j7868380086487_2_alg».proof.Proof.Gen.ReferenceIdeal
import proofs.«152987_j7868380086487_2_alg».proof.Proof.Gen.KernelIdeal.Value
import proofs.«152987_j7868380086487_2_alg».proof.Proof.Gen.ReferenceIdeal.Run
import proofs.«152987_j7868380086487_2_alg».proof.Proof.Gen.ReferenceIdeal.Read
import proofs.«152987_j7868380086487_2_alg».proof.Proof.Gen.Pre_finite_inputs
import proofs.«152987_j7868380086487_2_alg».proof.Proof.KernelArray
import proofs.«152987_j7868380086487_2_alg».proof.Proof.ReferenceValue
import proofs.«152987_j7868380086487_2_alg».proof.Proof.RealEntries
import Idealize.ShloMosaic.Adequacy
import Idealize.ShloMosaic.Init

noncomputable section

namespace Cert.Proof

open Idealize.ShloMosaic Idealize.SL.Sem

/-- The kernel's program, read at the word level, terminates without a fault and keeps its arguments. -/
theorem frame_kernel : Cert.frame_Kernel := fun m ρ _ => Cert.Kernel.Gen.frame m ρ

/-- So does the same text read on the extended reals. -/
theorem frame_kernelIdeal : Cert.frame_KernelIdeal := fun m ρ _ => Cert.KernelIdeal.Gen.frame m ρ

/-- The reference terminates without a fault and keeps its arguments: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and w, with every entry a real number, the kernel's output array (lanes outermost)
    and the reference's result (fields outermost) are equal entry by entry. -/
theorem algebraic : Cert.algebraic_KernelIdeal_ReferenceIdeal := by
  intro m ρ m' ρ' hpre hagree
  refine ⟨fun c => Cert.WeightedSquares.lanesOuter (Cert.KernelIdeal.ArrayValue.argX m c) (Cert.KernelIdeal.ArrayValue.argW m c),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]
  obtain ⟨hx, hw⟩ := Cert.Pre_finite_inputs.RealEntries.real_entries _ _ (hpre c)
  exact (Cert.WeightedSquares.lanesOuter_eq_fieldsOuter _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
